-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x9 : Shape := ⟨2, ![8388608, 9]⟩
abbrev S_ : Shape := ⟨0, ![]⟩

class Facts : Prop where
  bcast_S_S8388608x9 : S_.BroadcastsInDim S8388608x9 (![] : Fin 0 → Fin S8388608x9.rank)
  reducesTo_S8388608x9_S_d0_1 : S8388608x9.ReducesTo [0, 1] S_
  h_S_ : 0 < S_.numel

variable [Facts]

def fn {F : FTy → Type} [FloatOps F] (main_arg0 : FVec F S8388608x9 .f32) : IVec S_ 1 :=
  let main_v0 : FVec F S8388608x9 .f32 := Host.absf main_arg0
  let main_cst : FVec F S_ .f32 := constant S_ .f32 0x7F800000#32
  let main_v1 : FVec F S8388608x9 .f32 := broadcastInDim S8388608x9 ![] bcast_S_S8388608x9 main_cst
  let main_v2 : IVec S8388608x9 1 := cmpf .olt main_v0 main_v1
  let main_c : IVec S_ 1 := constantI S_ 1 1#1
  let main_v3 : IVec S_ 1 := (fun x v => Host.reduce IntOp.andi x v reducesTo_S8388608x9_S_d0_1 h_S_) main_v2 main_c
  main_v3
-- ==== Kernel.lean ====
abbrev S8388608x9 : Shape := ⟨2, ![8388608, 9]⟩
abbrev S16384x9 : Shape := ⟨2, ![16384, 9]⟩
abbrev S16384x1 : Shape := ⟨2, ![16384, 1]⟩
abbrev S16384 : Shape := ⟨1, ![16384]⟩

abbrev nBuf : Space → Nat
  | .hbm => 2
  | .vmem => 4
  | .smem => 0
  | _ => 0

abbrev bufTy : (tb : Table) → Fin (tcTables nBuf tb) → BufTy
  | .hbm, ⟨0, _⟩ => ⟨S8388608x9, .f32⟩
  | .hbm, ⟨1, _⟩ => ⟨S8388608x9, .f32⟩
  | .local _ .vmem, ⟨0, _⟩ => ⟨S16384x9, .f32⟩
  | .local _ .vmem, ⟨1, _⟩ => ⟨S16384x9, .f32⟩
  | .local _ .vmem, ⟨2, _⟩ => ⟨S16384x9, .f32⟩
  | .local _ .vmem, ⟨3, _⟩ => ⟨S16384x9, .f32⟩
  | _, _ => ⟨S8388608x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S16384x9_S16384x9_0_0 : ∀ a, (![0, 0] : Fin 2 → Nat) a + S16384x9.size a ≤ S16384x9.size a
  h_S16384x9 : 0 < S16384x9.numel
  slices_S16384x9_o0_0_S16384x1 : S16384x9.Slices ![0, 0] S16384x1
  shapeCasts_S16384x1_S16384 : S16384x1.ShapeCasts S16384
  slices_S16384x9_o0_1_S16384x1 : S16384x9.Slices ![0, 1] S16384x1
  slices_S16384x9_o0_2_S16384x1 : S16384x9.Slices ![0, 2] S16384x1
  slices_S16384x9_o0_4_S16384x1 : S16384x9.Slices ![0, 4] S16384x1
  slices_S16384x9_o0_5_S16384x1 : S16384x9.Slices ![0, 5] S16384x1
  slices_S16384x9_o0_8_S16384x1 : S16384x9.Slices ![0, 8] S16384x1
  inb_S16384x9_S16384x1_0_0 : ∀ a, (![0, 0] : Fin 2 → Nat) a + S16384x1.size a ≤ S16384x9.size a
  h_S16384x1 : 0 < S16384x1.numel
  shapeCasts_S16384_S16384x1 : S16384.ShapeCasts S16384x1
  inb_S16384x9_S16384x1_0_1 : ∀ a, (![0, 1] : Fin 2 → Nat) a + S16384x1.size a ≤ S16384x9.size a
  inb_S16384x9_S16384x1_0_2 : ∀ a, (![0, 2] : Fin 2 → Nat) a + S16384x1.size a ≤ S16384x9.size a
  inb_S16384x9_S16384x1_0_3 : ∀ a, (![0, 3] : Fin 2 → Nat) a + S16384x1.size a ≤ S16384x9.size a
  inb_S16384x9_S16384x1_0_4 : ∀ a, (![0, 4] : Fin 2 → Nat) a + S16384x1.size a ≤ S16384x9.size a
  inb_S16384x9_S16384x1_0_5 : ∀ a, (![0, 5] : Fin 2 → Nat) a + S16384x1.size a ≤ S16384x9.size a
  inb_S16384x9_S16384x1_0_6 : ∀ a, (![0, 6] : Fin 2 → Nat) a + S16384x1.size a ≤ S16384x9.size a
  inb_S16384x9_S16384x1_0_7 : ∀ a, (![0, 7] : Fin 2 → Nat) a + S16384x1.size a ≤ S16384x9.size a
  inb_S16384x9_S16384x1_0_8 : ∀ a, (![0, 8] : Fin 2 → Nat) a + S16384x1.size a ≤ S16384x9.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x9.size a ≤ S8388608x9.size a
  hwx0_0 : ∀ i : grid0.Coords, EltTy.bits .f32 = 32 ∨ (Rect.block (s := S8388608x9) S16384x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x9.size a ≤ S8388608x9.size a
  hwx0_1 : ∀ i : grid0.Coords, EltTy.bits .f32 = 32 ∨ (Rect.block (s := S8388608x9) S16384x9.size (cc0_transform_1 i) (hinb0_1 i)).WholeWords (EltTy.packing .f32)

variable [Facts₀]

abbrev win0_0 : Pipeline.Window sig grid0 :=
  Pipeline.Window.ofSpec (Memref.whole main_arg0) S16384x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16384x9.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8388608x9 : Shape := ⟨2, ![8388608, 9]⟩
abbrev S8388608x1 : Shape := ⟨2, ![8388608, 1]⟩
abbrev S8388608 : Shape := ⟨1, ![8388608]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S8388608x9, .f32⟩
  | .hbm, ⟨1, _⟩ => ⟨S8388608x1, .f32⟩
  | .hbm, ⟨2, _⟩ => ⟨S8388608, .f32⟩
  | .hbm, ⟨3, _⟩ => ⟨S8388608x1, .f32⟩
  | .hbm, ⟨4, _⟩ => ⟨S8388608, .f32⟩
  | .hbm, ⟨5, _⟩ => ⟨S8388608x1, .f32⟩
  | .hbm, ⟨6, _⟩ => ⟨S8388608, .f32⟩
  | .hbm, ⟨7, _⟩ => ⟨S8388608x1, .f32⟩
  | .hbm, ⟨8, _⟩ => ⟨S8388608, .f32⟩
  | .hbm, ⟨9, _⟩ => ⟨S8388608x1, .f32⟩
  | .hbm, ⟨10, _⟩ => ⟨S8388608, .f32⟩
  | .hbm, ⟨11, _⟩ => ⟨S8388608x1, .f32⟩
  | .hbm, ⟨12, _⟩ => ⟨S8388608, .f32⟩
  | .hbm, ⟨13, _⟩ => ⟨S_, .f32⟩
  | .hbm, ⟨14, _⟩ => ⟨S8388608, .f32⟩
  | .hbm, ⟨15, _⟩ => ⟨S8388608, .f32⟩
  | .hbm, ⟨16, _⟩ => ⟨S_, .f32⟩
  | .hbm, ⟨17, _⟩ => ⟨S8388608, .f32⟩
  | .hbm, ⟨18, _⟩ => ⟨S8388608, .f32⟩
  | .hbm, ⟨19, _⟩ => ⟨S_, .f32⟩
  | .hbm, ⟨20, _⟩ => ⟨S8388608, .f32⟩
  | .hbm, ⟨21, _⟩ => ⟨S8388608, .f32⟩
  | .hbm, ⟨22, _⟩ => ⟨S8388608, .f32⟩
  | .hbm, ⟨23, _⟩ => ⟨S8388608, .f32⟩
  | .hbm, ⟨24, _⟩ => ⟨S8388608, .f32⟩
  | .hbm, ⟨25, _⟩ => ⟨S8388608, .f32⟩
  | .hbm, ⟨26, _⟩ => ⟨S8388608, .f32⟩
  | .hbm, ⟨27, _⟩ => ⟨S8388608, .f32⟩
  | .hbm, ⟨28, _⟩ => ⟨S8388608, .f32⟩
  | .hbm, ⟨29, _⟩ => ⟨S8388608, .f32⟩
  | .hbm, ⟨30, _⟩ => ⟨S8388608, .f32⟩
  | .hbm, ⟨31, _⟩ => ⟨S8388608, .f32⟩
  | .hbm, ⟨32, _⟩ => ⟨S8388608, .f32⟩
  | .hbm, ⟨33, _⟩ => ⟨S8388608, .f32⟩
  | .hbm, ⟨34, _⟩ => ⟨S_, .f32⟩
  | .hbm, ⟨35, _⟩ => ⟨S8388608, .f32⟩
  | .hbm, ⟨36, _⟩ => ⟨S8388608x1, .f32⟩
  | .hbm, ⟨37, _⟩ => ⟨S8388608x1, .f32⟩
  | .hbm, ⟨38, _⟩ => ⟨S8388608x1, .f32⟩
  | .hbm, ⟨39, _⟩ => ⟨S8388608x1, .f32⟩
  | .hbm, ⟨40, _⟩ => ⟨S8388608x1, .f32⟩
  | .hbm, ⟨41, _⟩ => ⟨S8388608x1, .f32⟩
  | .hbm, ⟨42, _⟩ => ⟨S8388608x1, .f32⟩
  | .hbm, ⟨43, _⟩ => ⟨S8388608x1, .f32⟩
  | .hbm, ⟨44, _⟩ => ⟨S8388608x1, .f32⟩
  | .hbm, ⟨45, _⟩ => ⟨S8388608x9, .f32⟩
  | _, _ => ⟨S8388608x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_v13 : Ref sig .tc := ⟨.hbm, 15, rfl⟩
abbrev main_cst_0 : Ref sig .tc := ⟨.hbm, 16, rfl⟩
abbrev main_v14 : Ref sig .tc := ⟨.hbm, 17, rfl⟩
abbrev main_v15 : Ref sig .tc := ⟨.hbm, 18, rfl⟩
abbrev main_cst_1 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_cst_2 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩

abbrev nD : Nat := 1
abbrev τ : Topo := Topo.v7x

variable {F : FTy → Type} [FloatOps F]

class Facts₀ : Prop where
  slices_S8388608x9_S8388608x1_0_0 : S8388608x9.Slices ![0, 0] S8388608x1
  shapeCasts_S8388608x1_S8388608 : S8388608x1.ShapeCasts S8388608
  slices_S8388608x9_S8388608x1_0_1 : S8388608x9.Slices ![0, 1] S8388608x1
  slices_S8388608x9_S8388608x1_0_2 : S8388608x9.Slices ![0, 2] S8388608x1
  slices_S8388608x9_S8388608x1_0_4 : S8388608x9.Slices ![0, 4] S8388608x1
  slices_S8388608x9_S8388608x1_0_5 : S8388608x9.Slices ![0, 5] S8388608x1
  slices_S8388608x9_S8388608x1_0_8 : S8388608x9.Slices ![0, 8] S8388608x1
  bcast_S_S8388608 : S_.BroadcastsInDim S8388608 (![] : Fin 0 → Fin S8388608.rank)
  bcast_S8388608_S8388608x1_0 : S8388608.BroadcastsInDim S8388608x1 (![0] : Fin 1 → Fin S8388608x1.rank)
  concatenates_S8388608x1_S8388608x1_S8388608x1_S8388608x1_S8388608x1_S8388608x1_S8388608x1_S8388608x1_S8388608x1_S8388608x9_d1 : Shape.Concatenates [S8388608x1, S8388608x1, S8388608x1, S8388608x1, S8388608x1, S8388608x1, S8388608x1, S8388608x1, S8388608x1] S8388608x9 1

variable [Facts₀]

class Facts : Prop extends Facts₀ where

variable [Facts]
-- ==== Proof.LibColumns.lean ====
/-
  Columns of a rank-two array, as vectors.

  A program that works on an [n, w] array column by column cuts column `k` out as an [n, 1] slice and flattens it
  to a vector of `n` entries, and sets a computed vector of `n` entries up again as an [n, 1] column before putting
  it in its place. Read at a row `r`, the first is the array's entry (r, k) and the second is the vector's entry
  `r`: the row-major position of (r, 0) among [n, 1] is `r`, the position of `r` among [n].
-/
import Idealize.ShloMosaic.Lib.Pipeline.Value
import Idealize.ShloMosaic.Lib.ValueIdx

namespace Cert.TriInv

open Idealize.ShloMosaic Idealize.ShloMosaic.ValueIdx

variable {α : Type}

/-- Column `k` of an [n, w] array, cut out as an [n, 1] slice and flattened, read at row `r`: the entry (r, k). -/
theorem column_apply (n w k : Nat) (hk : k < w) (x : (⟨2, ![n, w]⟩ : Shape).Idx → α)
    (hs : (⟨2, ![n, w]⟩ : Shape).Slices ![0, k] ⟨2, ![n, 1]⟩) (hc : (⟨2, ![n, 1]⟩ : Shape).ShapeCasts ⟨1, ![n]⟩)
    (r : Fin n) :
    shapeCast ⟨1, ![n]⟩ (extractStridedSlice ⟨2, ![n, 1]⟩ ![0, k] x hs) hc (ix1 r) = x (ix2 r ⟨k, hk⟩) := by
  refine (shapeCast_apply _ hc (ix1 r) (ix2 r (0 : Fin 1)) ?_).trans ?_
  · rw [Shape.rowMajor_val_two, Shape.rowMajor_val_one]
    show r.val * 1 + 0 = r.val
    omega
  · refine extractStridedSlice_apply ![0, k] x hs (ix2 r (0 : Fin 1)) (ix2 r ⟨k, hk⟩) fun a => ?_
    match a with
    | ⟨0, _⟩ => show r.val = 0 + r.val; omega
    | ⟨1, _⟩ => show k = k + 0; omega

/-- A vector of `n` entries set up as an [n, 1] column, read at (r, 0): the vector's entry `r`. -/
theorem asColumn_apply (n : Nat) (w : (⟨1, ![n]⟩ : Shape).Idx → α)
    (hc : (⟨1, ![n]⟩ : Shape).ShapeCasts ⟨2, ![n, 1]⟩) (r : Fin n) (z : Fin 1) :
    shapeCast ⟨2, ![n, 1]⟩ w hc (ix2 r z) = w (ix1 r) := by
  refine shapeCast_apply w hc (ix2 r z) (ix1 r) ?_
  rw [Shape.rowMajor_val_two, Shape.rowMajor_val_one]
  have hz : z.val < 1 := z.isLt
  show r.val = r.val * 1 + z.val
  omega

end Cert.TriInv
-- ==== Proof.Spec.lean ====
/-
  The inverse of an upper-triangular 3×3 matrix, entry by entry, over the extended reals.

  A row of the array holds a 3×3 matrix row-major, of which only the upper triangle is read:

      [ a  b  c ]                      [ 1/a   −b·(1/a)·(1/d)   (b·e − c·d)·((1/a)·(1/d)·(1/f)) ]
      [ ·  d  e ]     its inverse      [  0        1/d               −e·(1/d)·(1/f)             ]
      [ ·  ·  f ]                      [  0         0                    1/f                    ]

  with a = X 0, b = X 1, c = X 2, d = X 4, e = X 5, f = X 8. `entry X col` is entry `col` of the inverse laid out
  row-major again, each product grouped exactly as written above; the quotient is the extended reals' `Ideal.div`,
  the one and the zero are the values of the single-precision words 0x3F800000 and 0x00000000. `inv` applies it to
  every row of the whole [8388608, 9] array and `invBlock` to every row of a block of 16384 rows; a block of the
  first is the second of the block (`inv_ix2`, `invBlock_ix2`: both read only the entry's own row).
-/
import Idealize.ShloMosaic.PureOps.Ideal
import Idealize.ShloMosaic.Lib.ValueIdx

noncomputable section

namespace Cert.TriInv

open Idealize.ShloMosaic Idealize.ShloMosaic.ValueIdx

/-- Entry `col` of the row-major inverse of the upper-triangular matrix whose row-major entries are `X`. -/
def entry (X : Fin 9 → EReal) (col : Fin 9) : EReal :=
  match col with
  | ⟨0, _⟩ => Ideal.div (Ideal.ofBits .f32 0x3F800000#32) (X 0)
  | ⟨1, _⟩ => -(X 1) * Ideal.div (Ideal.ofBits .f32 0x3F800000#32) (X 0) * Ideal.div (Ideal.ofBits .f32 0x3F800000#32) (X 4)
  | ⟨2, _⟩ => (X 1 * X 5 - X 2 * X 4)
      * (Ideal.div (Ideal.ofBits .f32 0x3F800000#32) (X 0) * Ideal.div (Ideal.ofBits .f32 0x3F800000#32) (X 4)
          * Ideal.div (Ideal.ofBits .f32 0x3F800000#32) (X 8))
  | ⟨3, _⟩ => Ideal.ofBits .f32 0x00000000#32
  | ⟨4, _⟩ => Ideal.div (Ideal.ofBits .f32 0x3F800000#32) (X 4)
  | ⟨5, _⟩ => -(X 5) * Ideal.div (Ideal.ofBits .f32 0x3F800000#32) (X 4) * Ideal.div (Ideal.ofBits .f32 0x3F800000#32) (X 8)
  | ⟨6, _⟩ => Ideal.ofBits .f32 0x00000000#32
  | ⟨7, _⟩ => Ideal.ofBits .f32 0x00000000#32
  | ⟨8, _⟩ => Ideal.div (Ideal.ofBits .f32 0x3F800000#32) (X 8)
  | ⟨n + 9, h⟩ => absurd h (by omega)

/-- Every row of the [8388608, 9] array replaced by its matrix's inverse. -/
def inv (X : (⟨2, ![8388608, 9]⟩ : Shape).Idx → EReal) : (⟨2, ![8388608, 9]⟩ : Shape).Idx → EReal :=
  fun j => entry (fun k => X (ix2 (n0 := 8388608) (n1 := 9) (j 0) k)) (j 1)

/-- Every row of a block of 16384 rows replaced by its matrix's inverse. -/
def invBlock (X : (⟨2, ![16384, 9]⟩ : Shape).Idx → EReal) : (⟨2, ![16384, 9]⟩ : Shape).Idx → EReal :=
  fun j => entry (fun k => X (ix2 (n0 := 16384) (n1 := 9) (j 0) k)) (j 1)

theorem inv_ix2 (X : (⟨2, ![8388608, 9]⟩ : Shape).Idx → EReal) (r : Fin 8388608) (k : Fin 9) :
    inv X (ix2 r k) = entry (fun k' => X (ix2 r k')) k := rfl

theorem invBlock_ix2 (X : (⟨2, ![16384, 9]⟩ : Shape).Idx → EReal) (r : Fin 16384) (k : Fin 9) :
    invBlock X (ix2 r k) = entry (fun k' => X (ix2 r k')) k := rfl

end Cert.TriInv

end
-- ==== Proof.KernelBlock.lean ====
/-
  What the kernel body leaves in its output block: the inverse of every row of its input block.

  The body loads its whole [16384, 9] input block once, takes the columns a, b, c, d, e, f (columns 0, 1, 2, 4, 5, 8)
  apart as vectors of 16384 entries, forms the three reciprocals 1/a, 1/d, 1/f and the three off-diagonal entries
  row by row, and stores nine columns, one store each, into the output block: the entries of the inverse and three
  columns of zeros. The nine stores tile the block, and every one of them stores, at row r, entry (r, its column) of
  `invBlock` of the input block; so the block the body leaves IS `invBlock` of the input block. The kernel negates
  by subtracting from zero, and on the extended reals 0 − x = −x for every x, the infinities included.
-/
import proofs.«142491_j13572096655809_2_alg».proof.Proof.Gen.KernelIdeal.Frame
import proofs.«142491_j13572096655809_2_alg».proof.Proof.LibColumns
import proofs.«142491_j13572096655809_2_alg».proof.Proof.Spec
import Idealize.ShloMosaic.PureOps.Ideal.Laws
import Idealize.ShloMosaic.Lib.Pipeline.Value

noncomputable section

namespace Cert.KernelIdeal.Hand

open Cert.KernelIdeal Cert.KernelIdeal.Gen Cert.TriInv Idealize.ShloMosaic Idealize.ShloMosaic.ValueIdx

/-! ## The columns of the loaded block, at a row -/

theorem colB (v0 : Vec Ideal S16384x9 .f32) (r : Fin 16384) : k0_pay7 v0 (ix1 r) = v0 (ix2 r 1) := by
  unfold k0_pay7
  exact column_apply 16384 9 1 (by omega) v0 _ _ r

theorem colC (v0 : Vec Ideal S16384x9 .f32) (r : Fin 16384) :
    shapeCast S16384 (extractStridedSlice S16384x1 ![0, 2] v0 slices_S16384x9_o0_2_S16384x1) shapeCasts_S16384x1_S16384 (ix1 r)
      = v0 (ix2 r 2) :=
  column_apply 16384 9 2 (by omega) v0 _ _ r

theorem colD (v0 : Vec Ideal S16384x9 .f32) (r : Fin 16384) : k0_pay8 v0 (ix1 r) = v0 (ix2 r 4) := by
  unfold k0_pay8
  exact column_apply 16384 9 4 (by omega) v0 _ _ r

theorem colE (v0 : Vec Ideal S16384x9 .f32) (r : Fin 16384) : k0_pay9 v0 (ix1 r) = v0 (ix2 r 5) := by
  unfold k0_pay9
  exact column_apply 16384 9 5 (by omega) v0 _ _ r

/-! ## The reciprocals of the diagonal, at a row -/

theorem recipA (v0 : Vec Ideal S16384x9 .f32) (r : Fin 16384) :
    k0_pay10 v0 (ix1 r) = Ideal.div (Ideal.ofBits .f32 0x3F800000#32) (v0 (ix2 r 0)) := by
  unfold k0_pay10
  exact congrArg (Ideal.div (Ideal.ofBits .f32 0x3F800000#32)) (column_apply 16384 9 0 (by omega) v0 _ _ r)

theorem recipD (v0 : Vec Ideal S16384x9 .f32) (r : Fin 16384) :
    k0_pay11 v0 (ix1 r) = Ideal.div (Ideal.ofBits .f32 0x3F800000#32) (v0 (ix2 r 4)) := by
  unfold k0_pay11
  exact congrArg (Ideal.div (Ideal.ofBits .f32 0x3F800000#32)) (colD v0 r)

theorem recipF (v0 : Vec Ideal S16384x9 .f32) (r : Fin 16384) :
    k0_pay12 v0 (ix1 r) = Ideal.div (Ideal.ofBits .f32 0x3F800000#32) (v0 (ix2 r 8)) := by
  unfold k0_pay12
  exact congrArg (Ideal.div (Ideal.ofBits .f32 0x3F800000#32)) (column_apply 16384 9 8 (by omega) v0 _ _ r)

/-- Entry (1, 2) of the inverse at a row: −e · (1/d) · (1/f), the kernel's `0 − e` being `−e`. -/
theorem entry12 (v0 : Vec Ideal S16384x9 .f32) (r : Fin 16384) :
    k0_pay13 v0 (ix1 r) = -(v0 (ix2 r 5)) * Ideal.div (Ideal.ofBits .f32 0x3F800000#32) (v0 (ix2 r 4))
      * Ideal.div (Ideal.ofBits .f32 0x3F800000#32) (v0 (ix2 r 8)) := by
  unfold k0_pay13
  show (Ideal.ofBits .f32 0x00000000#32 - k0_pay9 v0 (ix1 r)) * k0_pay11 v0 (ix1 r) * k0_pay12 v0 (ix1 r) = _
  rw [colE, recipD, recipF, Ideal.ofBits_zero_f32, zero_sub]

/-! ## The nine stored columns, at a row: each is its column of `invBlock` -/

theorem stored0 (v0 : Vec Ideal S16384x9 .f32) (r : Fin 16384) (z : Fin 1) :
    k0_pay15 v0 (ix2 r z) = invBlock v0 (ix2 r 0) := by
  unfold k0_pay15
  refine (asColumn_apply 16384 _ _ r z).trans ?_
  rw [recipA]
  rfl

theorem stored1 (v0 : Vec Ideal S16384x9 .f32) (r : Fin 16384) (z : Fin 1) :
    k0_pay16 v0 (ix2 r z) = invBlock v0 (ix2 r 1) := by
  unfold k0_pay16
  refine (asColumn_apply 16384 _ _ r z).trans ?_
  show (Ideal.ofBits .f32 0x00000000#32 - k0_pay7 v0 (ix1 r)) * k0_pay10 v0 (ix1 r) * k0_pay11 v0 (ix1 r) = _
  rw [colB, recipA, recipD, Ideal.ofBits_zero_f32, zero_sub]
  rfl

theorem stored2 (v0 : Vec Ideal S16384x9 .f32) (r : Fin 16384) (z : Fin 1) :
    k0_pay17 v0 (ix2 r z) = invBlock v0 (ix2 r 2) := by
  unfold k0_pay17
  refine (asColumn_apply 16384 _ _ r z).trans ?_
  show (k0_pay7 v0 (ix1 r) * k0_pay9 v0 (ix1 r)
      - shapeCast S16384 (extractStridedSlice S16384x1 ![0, 2] v0 slices_S16384x9_o0_2_S16384x1) shapeCasts_S16384x1_S16384 (ix1 r)
        * k0_pay8 v0 (ix1 r))
    * (k0_pay10 v0 (ix1 r) * k0_pay11 v0 (ix1 r) * k0_pay12 v0 (ix1 r)) = _
  rw [colB, colC, colD, colE, recipA, recipD, recipF]
  rfl

theorem stored3 (v0 : Vec Ideal S16384x9 .f32) (r : Fin 16384) (z : Fin 1) :
    k0_pay1 (k0_pay14 (F := Ideal)) (ix2 r z) = invBlock v0 (ix2 r 3) := by
  unfold k0_pay1
  exact asColumn_apply 16384 _ _ r z

theorem stored4 (v0 : Vec Ideal S16384x9 .f32) (r : Fin 16384) (z : Fin 1) :
    k0_pay2 (k0_pay11 v0) (ix2 r z) = invBlock v0 (ix2 r 4) := by
  unfold k0_pay2
  refine (asColumn_apply 16384 _ _ r z).trans ?_
  rw [recipD]
  rfl

theorem stored5 (v0 : Vec Ideal S16384x9 .f32) (r : Fin 16384) (z : Fin 1) :
    k0_pay3 (k0_pay13 v0) (ix2 r z) = invBlock v0 (ix2 r 5) := by
  unfold k0_pay3
  refine (asColumn_apply 16384 _ _ r z).trans ?_
  rw [entry12]
  rfl

theorem stored6 (v0 : Vec Ideal S16384x9 .f32) (r : Fin 16384) (z : Fin 1) :
    k0_pay4 (k0_pay14 (F := Ideal)) (ix2 r z) = invBlock v0 (ix2 r 6) := by
  unfold k0_pay4
  exact asColumn_apply 16384 _ _ r z

theorem stored7 (v0 : Vec Ideal S16384x9 .f32) (r : Fin 16384) (z : Fin 1) :
    k0_pay5 (k0_pay14 (F := Ideal)) (ix2 r z) = invBlock v0 (ix2 r 7) := by
  unfold k0_pay5
  exact asColumn_apply 16384 _ _ r z

theorem stored8 (v0 : Vec Ideal S16384x9 .f32) (r : Fin 16384) (z : Fin 1) :
    k0_pay6 (k0_pay12 v0) (ix2 r z) = invBlock v0 (ix2 r 8) := by
  unfold k0_pay6
  refine (asColumn_apply 16384 _ _ r z).trans ?_
  rw [recipF]
  rfl

/-! ## The block the body leaves -/

theorem zero_offsets : (![0, 0] : Fin 2 → Nat) = fun _ => 0 := funext fun a => by fin_cases a <;> rfl

/-- Row `r` of the one-column rectangle at column `c` of the block is the block's entry (r, c). -/
theorem emb_column (c : Nat) (hc : c < 9)
    (inb : ∀ a, (![0, c] : Fin 2 → Nat) a + S16384x1.size a ≤ S16384x9.size a) (r : Fin 16384) (z : Fin 1) :
    (Rect.unit (s := S16384x9) ![0, c] S16384x1.size inb).emb (ix2 r z) = ix2 r ⟨c, hc⟩ := by
  funext a
  apply Fin.ext
  have hz : z.val < 1 := z.isLt
  match a with
  | ⟨0, _⟩ => show 0 + 1 * r.val = r.val; omega
  | ⟨1, _⟩ => show c + 1 * z.val = c; omega

/-- THE BLOCK: after the body the output block holds the inverse of every row of the input block. The nine stores
    tile the block, and each stores its column of `invBlock`. -/
theorem block_eq (x0 : Vec Ideal S16384x9 .f32) : out0_1 x0 = invBlock x0 := by
  funext y
  unfold out0_1
  simp only [View.ld_unit_zero (S := S16384x9) zero_offsets]
  refine View.canon_apply_of_pieces (Val := Elt Ideal) (S := S16384x9) (e := .f32) (invBlock x0) _ ?_ y (cover0_1 _ _ _ _ _ _ _ _ _ y)
  intro p hp x
  simp only [List.mem_cons, List.not_mem_nil, or_false] at hp
  rcases hp with rfl | rfl | rfl | rfl | rfl | rfl | rfl | rfl | rfl <;>
    obtain ⟨r, z, rfl⟩ : ∃ (r : Fin 16384) (z : Fin 1), x = ix2 r z := ⟨x 0, x 1, eq_ix2 (n0 := 16384) (n1 := 1) x⟩
  · exact (stored8 x0 r z).trans (congrArg (invBlock x0) (emb_column 8 (by omega) inb_S16384x9_S16384x1_0_8 r z).symm)
  · exact (stored7 x0 r z).trans (congrArg (invBlock x0) (emb_column 7 (by omega) inb_S16384x9_S16384x1_0_7 r z).symm)
  · exact (stored6 x0 r z).trans (congrArg (invBlock x0) (emb_column 6 (by omega) inb_S16384x9_S16384x1_0_6 r z).symm)
  · exact (stored5 x0 r z).trans (congrArg (invBlock x0) (emb_column 5 (by omega) inb_S16384x9_S16384x1_0_5 r z).symm)
  · exact (stored4 x0 r z).trans (congrArg (invBlock x0) (emb_column 4 (by omega) inb_S16384x9_S16384x1_0_4 r z).symm)
  · exact (stored3 x0 r z).trans (congrArg (invBlock x0) (emb_column 3 (by omega) inb_S16384x9_S16384x1_0_3 r z).symm)
  · exact (stored2 x0 r z).trans (congrArg (invBlock x0) (emb_column 2 (by omega) inb_S16384x9_S16384x1_0_2 r z).symm)
  · exact (stored1 x0 r z).trans (congrArg (invBlock x0) (emb_column 1 (by omega) inb_S16384x9_S16384x1_0_1 r z).symm)
  · exact (stored0 x0 r z).trans (congrArg (invBlock x0) (emb_column 0 (by omega) inb_S16384x9_S16384x1_0_0 r z).symm)

end Cert.KernelIdeal.Hand

end
-- ==== Proof.KernelArray.lean ====
/-
  The kernel's result array: the inverse of every row of the argument.

  The grid has 512 points; point t stages rows 16384·t … 16384·t + 16383 of the argument (all nine columns) and
  writes the same rows of the result. The body turns its input block into `invBlock` of it, and `invBlock` reads,
  for an entry, only the entry's own row; so what point t writes back is rows 16384·t … of `inv` of the argument —
  block t of ONE whole-array function. Every row r lies in the block of point r / 16384, so the 512 blocks cover the
  result array, which therefore ends holding `inv` of the argument.
-/
import proofs.«142491_j13572096655809_2_alg».proof.Proof.Gen.KernelIdeal.Value
import proofs.«142491_j13572096655809_2_alg».proof.Proof.KernelBlock
import Idealize.ShloMosaic.Lib.Pipeline.Value

noncomputable section

namespace Cert.KernelIdeal.Hand

open Cert.KernelIdeal Cert.KernelIdeal.Gen Cert.TriInv
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- Both windows' block index at point `t` is (t, 0): decided over the 512 points. -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

theorem point_lt (t : Fin cfg0.N) : t.val < 512 := Nat.lt_of_lt_of_eq t.isLt N_0

/-- Entry (r, k) of the input block at point `t` is entry (16384·t + r, k) of the argument. -/
theorem iblk_apply (c : Dev nD) (t : Fin cfg0.N) (r : Fin 16384) (k : Fin 9) (R : Fin 8388608)
    (hR : R.val = 16384 * t.val + r.val) :
    (iblk m c 0 t : Vec Ideal S16384x9 .f32) (ix2 r k) = (V m c main_arg0 : S8388608x9.Idx → Elt Ideal .f32) (ix2 R k) := by
  obtain ⟨e0, e1, -, -⟩ := block_index t
  unfold iblk
  rw [View.read_apply]
  show V m c main_arg0 _ = V m c main_arg0 _
  refine congrArg _ (funext fun a => Fin.ext ?_)
  match a with
  | ⟨0, _⟩ => show win0_0.index t 0 * 16384 + 1 * r.val = R.val; rw [e0, hR]; omega
  | ⟨1, _⟩ => show win0_0.index t 1 * 9 + 1 * k.val = k.val; rw [e1]; omega

/-- Entry (r, k) of the output block at point `t` sits at (16384·t + r, k) of the result array. -/
theorem oblk_emb (t : Fin cfg0.N) (r : Fin 16384) (k : Fin 9) (R : Fin 8388608)
    (hR : R.val = 16384 * t.val + r.val) :
    ((cfg0.win 1).blk t).view.emb (ix2 r k) = (ix2 R k : S8388608x9.Idx) := by
  obtain ⟨-, -, e0, e1⟩ := block_index t
  refine funext fun a => Fin.ext ?_
  match a with
  | ⟨0, _⟩ => show win0_1.index t 0 * 16384 + 1 * r.val = R.val; rw [e0, hR]; omega
  | ⟨1, _⟩ => show win0_1.index t 1 * 9 + 1 * k.val = k.val; rw [e1]; omega

/-- WHAT POINT `t` WRITES BACK is block `t` of `inv` of the argument. -/
theorem flushed_eq (c : Dev nD) (t : Fin cfg0.N) :
    (dats m 0 c).flushed 1 t = ((cfg0.win 1).blk t).view.read (Elt Ideal) (inv (V m c main_arg0)) := by
  show (cfg0.win 1).cut (grid0.coords t) ((dats m 0 c).after 1 t) = _
  rw [after0_1]
  funext j
  show out0_1 (iblk m c 0 t) j = inv (V m c main_arg0) (((cfg0.win 1).blk t).view.emb j)
  refine (congrFun (block_eq (iblk m c 0 t)) j).trans ?_
  obtain ⟨r, k, rfl⟩ : ∃ (r : Fin 16384) (k : Fin 9), j = ix2 r k := ⟨j 0, j 1, eq_ix2 (n0 := 16384) (n1 := 9) j⟩
  have ht := point_lt t
  have hR : (⟨16384 * t.val + r.val, by have := r.isLt; omega⟩ : Fin 8388608).val = 16384 * t.val + r.val := rfl
  rw [oblk_emb t r k _ hR, inv_ix2, invBlock_ix2]
  exact congrArg (fun X => entry X k) (funext fun k' => iblk_apply m c t r k' _ hR)

/-- An index of the result array is in point `t`'s block iff its row is one of the block's 16384 rows. -/
theorem mem_blk (t : Fin cfg0.N) (i : S8388608x9.Idx) :
    i ∈ ((cfg0.win 1).blk t).view.set ↔ ∀ a : Fin 2, win0_1.index t a * S16384x9.size a ≤ (i a).val
      ∧ (i a).val < win0_1.index t a * S16384x9.size a + S16384x9.size a := by
  show i ∈ ((View.whole main_v0).slice (win0_1.rect t)).set ↔ _
  rw [View.set_slice_whole, Rect.mem_set_unit]
  exact Iff.rfl

/-- The 512 blocks cover the result array: row `r` is in the block of point `r / 16384`. -/
theorem cover (i : S8388608x9.Idx) :
    ∃ t : Fin cfg0.N, (cfg0.win 1).flush t = true ∧ i ∈ ((cfg0.win 1).blk t).view.set := by
  have hi0 : (i 0).val < 8388608 := (i 0).isLt
  have hi1 : (i 1).val < 9 := (i 1).isLt
  let t : Fin cfg0.N := ⟨(i 0).val / 16384, Nat.lt_of_lt_of_eq (show (i 0).val / 16384 < 512 by omega) N_0.symm⟩
  obtain ⟨-, -, e0, e1⟩ := block_index t
  have ht : t.val = (i 0).val / 16384 := rfl
  refine ⟨t, flush0_1 t, ?_⟩
  rw [mem_blk]
  intro a
  match a with
  | ⟨0, _⟩ =>
    show win0_1.index t 0 * 16384 ≤ (i 0).val ∧ (i 0).val < win0_1.index t 0 * 16384 + 16384
    rw [e0, ht]; omega
  | ⟨1, _⟩ =>
    show win0_1.index t 1 * 9 ≤ (i 1).val ∧ (i 1).val < win0_1.index t 1 * 9 + 9
    rw [e1]; omega

/-- THE RESULT ARRAY after the run is `inv` of the argument. -/
theorem final (c : Dev nD) :
    (dats m 0 c).arrAt 1 cfg0.N = inv (m ((c : Thread nD τ).loc main_arg0)) :=
  (dats m 0 c).arrAt_eq_of_cover 1 (inv (V m c main_arg0)) (fun t _ => flushed_eq m c t) cover

/-- The run, read: the result array at `inv` of the argument, the argument unchanged. -/
theorem run : θ_run defs (onTc (τ := τ) (main (F := Ideal))) ⟨m, fun _ => 0, ρ⟩ fun r => ∀ c : Dev nD,
      r.2.mem ((c : Thread nD τ).loc main_v0) = inv (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KernelIdeal.Hand

end
-- ==== Proof.RefValue.lean ====
/-
  What the reference computes: the inverse of every row of its argument.

  The reference takes the same six columns of the [8388608, 9] array apart as vectors of 8388608 entries, forms the
  same reciprocals and products in the same grouping, sets each of its nine result vectors up as an [8388608, 1]
  column and joins the nine columns along axis 1. Read at (r, k), the joined array is column k at row r, and column
  k at row r is entry k of the inverse of row r: the reference's array is `inv` of its argument.
-/
import proofs.«142491_j13572096655809_2_alg».proof.Proof.Gen.ReferenceIdeal.Read
import proofs.«142491_j13572096655809_2_alg».proof.Proof.Spec
import Idealize.ShloMosaic.Lib.Pipeline.Value
import Idealize.ShloMosaic.Lib.ValueIdx

noncomputable section

namespace Cert.ReferenceIdeal.Hand

open Cert.ReferenceIdeal Cert.ReferenceIdeal.Gen Cert.ReferenceIdeal.Read Cert.TriInv
open Idealize.ShloMosaic Idealize.ShloMosaic.ValueIdx

variable (X : S8388608x9.Idx → Elt Ideal .f32)

/-! ## The six columns, at a row -/

theorem colA (r : Fin 8388608) : val_main_v1 (F := Ideal) X (ix1 r) = X (ix2 r 0) := by
  rw [val_main_v1_apply, val_main_v0_apply]
  refine congrArg X (funext fun a => Fin.ext ?_)
  match a with
  | ⟨0, _⟩ => show r.val / 1 = r.val; omega
  | ⟨1, _⟩ => rfl

theorem colB (r : Fin 8388608) : val_main_v3 (F := Ideal) X (ix1 r) = X (ix2 r 1) := by
  rw [val_main_v3_apply, val_main_v2_apply]
  refine congrArg X (funext fun a => Fin.ext ?_)
  match a with
  | ⟨0, _⟩ => show r.val / 1 = r.val; omega
  | ⟨1, _⟩ => rfl

theorem colC (r : Fin 8388608) : val_main_v5 (F := Ideal) X (ix1 r) = X (ix2 r 2) := by
  rw [val_main_v5_apply, val_main_v4_apply]
  refine congrArg X (funext fun a => Fin.ext ?_)
  match a with
  | ⟨0, _⟩ => show r.val / 1 = r.val; omega
  | ⟨1, _⟩ => rfl

theorem colD (r : Fin 8388608) : val_main_v7 (F := Ideal) X (ix1 r) = X (ix2 r 4) := by
  rw [val_main_v7_apply, val_main_v6_apply]
  refine congrArg X (funext fun a => Fin.ext ?_)
  match a with
  | ⟨0, _⟩ => show r.val / 1 = r.val; omega
  | ⟨1, _⟩ => rfl

theorem colE (r : Fin 8388608) : val_main_v9 (F := Ideal) X (ix1 r) = X (ix2 r 5) := by
  rw [val_main_v9_apply, val_main_v8_apply]
  refine congrArg X (funext fun a => Fin.ext ?_)
  match a with
  | ⟨0, _⟩ => show r.val / 1 = r.val; omega
  | ⟨1, _⟩ => rfl

theorem colF (r : Fin 8388608) : val_main_v11 (F := Ideal) X (ix1 r) = X (ix2 r 8) := by
  rw [val_main_v11_apply, val_main_v10_apply]
  refine congrArg X (funext fun a => Fin.ext ?_)
  match a with
  | ⟨0, _⟩ => show r.val / 1 = r.val; omega
  | ⟨1, _⟩ => rfl

/-! ## The constants spread over the rows -/

theorem ones12 (r : Fin 8388608) : val_main_v12 (F := Ideal) (ix1 r) = Ideal.ofBits .f32 0x3F800000#32 := by
  rw [val_main_v12_apply]; rfl

theorem ones14 (r : Fin 8388608) : val_main_v14 (F := Ideal) (ix1 r) = Ideal.ofBits .f32 0x3F800000#32 := by
  rw [val_main_v14_apply]; rfl

theorem ones16 (r : Fin 8388608) : val_main_v16 (F := Ideal) (ix1 r) = Ideal.ofBits .f32 0x3F800000#32 := by
  rw [val_main_v16_apply]; rfl

theorem zeros30 (r : Fin 8388608) : val_main_v30 (F := Ideal) (ix1 r) = Ideal.ofBits .f32 0x00000000#32 := by
  rw [val_main_v30_apply]; rfl

/-! ## The reciprocals of the diagonal and the off-diagonal entries, at a row -/

theorem recipA (r : Fin 8388608) :
    val_main_v13 (F := Ideal) X (ix1 r) = Ideal.div (Ideal.ofBits .f32 0x3F800000#32) (X (ix2 r 0)) := by
  rw [val_main_v13_apply, ones12, colA]; rfl

theorem recipD (r : Fin 8388608) :
    val_main_v15 (F := Ideal) X (ix1 r) = Ideal.div (Ideal.ofBits .f32 0x3F800000#32) (X (ix2 r 4)) := by
  rw [val_main_v15_apply, ones14, colD]; rfl

theorem recipF (r : Fin 8388608) :
    val_main_v17 (F := Ideal) X (ix1 r) = Ideal.div (Ideal.ofBits .f32 0x3F800000#32) (X (ix2 r 8)) := by
  rw [val_main_v17_apply, ones16, colF]; rfl

theorem entry01 (r : Fin 8388608) :
    val_main_v20 (F := Ideal) X (ix1 r) = -(X (ix2 r 1)) * Ideal.div (Ideal.ofBits .f32 0x3F800000#32) (X (ix2 r 0))
      * Ideal.div (Ideal.ofBits .f32 0x3F800000#32) (X (ix2 r 4)) := by
  rw [val_main_v20_apply, val_main_v19_apply, val_main_v18_apply, colB, recipA, recipD]; rfl

theorem entry12 (r : Fin 8388608) :
    val_main_v23 (F := Ideal) X (ix1 r) = -(X (ix2 r 5)) * Ideal.div (Ideal.ofBits .f32 0x3F800000#32) (X (ix2 r 4))
      * Ideal.div (Ideal.ofBits .f32 0x3F800000#32) (X (ix2 r 8)) := by
  rw [val_main_v23_apply, val_main_v22_apply, val_main_v21_apply, colE, recipD, recipF]; rfl

theorem entry02 (r : Fin 8388608) :
    val_main_v29 (F := Ideal) X (ix1 r) = (X (ix2 r 1) * X (ix2 r 5) - X (ix2 r 2) * X (ix2 r 4))
      * (Ideal.div (Ideal.ofBits .f32 0x3F800000#32) (X (ix2 r 0)) * Ideal.div (Ideal.ofBits .f32 0x3F800000#32) (X (ix2 r 4))
          * Ideal.div (Ideal.ofBits .f32 0x3F800000#32) (X (ix2 r 8))) := by
  rw [val_main_v29_apply, val_main_v26_apply, val_main_v24_apply, val_main_v25_apply, val_main_v28_apply,
    val_main_v27_apply, colB, colC, colD, colE, recipA, recipD, recipF]; rfl

/-! ## The nine columns that are joined, at a row: each is its entry of the row's inverse -/

theorem joined0 (r : Fin 8388608) (z : Fin 1) :
    val_main_v31 (F := Ideal) X (ix2 r z) = entry (fun k => X (ix2 r k)) 0 := by
  rw [val_main_v31_apply, show idx_main_v31 (ix2 r z) = ix1 r from funext fun a => match a with | ⟨0, _⟩ => rfl, recipA]
  rfl

theorem joined1 (r : Fin 8388608) (z : Fin 1) :
    val_main_v32 (F := Ideal) X (ix2 r z) = entry (fun k => X (ix2 r k)) 1 := by
  rw [val_main_v32_apply, show idx_main_v32 (ix2 r z) = ix1 r from funext fun a => match a with | ⟨0, _⟩ => rfl, entry01]
  rfl

theorem joined2 (r : Fin 8388608) (z : Fin 1) :
    val_main_v33 (F := Ideal) X (ix2 r z) = entry (fun k => X (ix2 r k)) 2 := by
  rw [val_main_v33_apply, show idx_main_v33 (ix2 r z) = ix1 r from funext fun a => match a with | ⟨0, _⟩ => rfl, entry02]
  rfl

theorem joined3 (r : Fin 8388608) (z : Fin 1) :
    val_main_v34 (F := Ideal)  (ix2 r z) = entry (fun k => X (ix2 r k)) 3 := by
  rw [val_main_v34_apply, show idx_main_v34 (ix2 r z) = ix1 r from funext fun a => match a with | ⟨0, _⟩ => rfl, zeros30]
  rfl

theorem joined4 (r : Fin 8388608) (z : Fin 1) :
    val_main_v35 (F := Ideal) X (ix2 r z) = entry (fun k => X (ix2 r k)) 4 := by
  rw [val_main_v35_apply, show idx_main_v35 (ix2 r z) = ix1 r from funext fun a => match a with | ⟨0, _⟩ => rfl, recipD]
  rfl

theorem joined5 (r : Fin 8388608) (z : Fin 1) :
    val_main_v36 (F := Ideal) X (ix2 r z) = entry (fun k => X (ix2 r k)) 5 := by
  rw [val_main_v36_apply, show idx_main_v36 (ix2 r z) = ix1 r from funext fun a => match a with | ⟨0, _⟩ => rfl, entry12]
  rfl

theorem joined6 (r : Fin 8388608) (z : Fin 1) :
    val_main_v37 (F := Ideal)  (ix2 r z) = entry (fun k => X (ix2 r k)) 6 := by
  rw [val_main_v37_apply, show idx_main_v37 (ix2 r z) = ix1 r from funext fun a => match a with | ⟨0, _⟩ => rfl, zeros30]
  rfl

theorem joined7 (r : Fin 8388608) (z : Fin 1) :
    val_main_v38 (F := Ideal)  (ix2 r z) = entry (fun k => X (ix2 r k)) 7 := by
  rw [val_main_v38_apply, show idx_main_v38 (ix2 r z) = ix1 r from funext fun a => match a with | ⟨0, _⟩ => rfl, zeros30]
  rfl

theorem joined8 (r : Fin 8388608) (z : Fin 1) :
    val_main_v39 (F := Ideal) X (ix2 r z) = entry (fun k => X (ix2 r k)) 8 := by
  rw [val_main_v39_apply, show idx_main_v39 (ix2 r z) = ix1 r from funext fun a => match a with | ⟨0, _⟩ => rfl, recipF]
  rfl

/-! ## The joined array -/

/-- Nine [8388608, 1] columns joined along axis 1, read at (r, k): column `k` at row `r`. -/
theorem joined_apply (xs : List ((s : Shape) × (s.Idx → Elt Ideal .f32)))
    (h : Shape.Concatenates (xs.map (·.1)) S8388608x9 1) (k : Nat) (hk9 : k < 9) (hk : k < xs.length)
    (x₁ : S8388608x1.Idx → Elt Ideal .f32) (hxk : xs[k] = ⟨S8388608x1, x₁⟩)
    (hpre : (((xs.take k).map (·.1)).map fun s =>
      if h : s.rank = S8388608x9.rank then s.size ((1 : Fin S8388608x9.rank).cast h.symm) else 0).sum = k)
    (r : Fin 8388608) :
    concatenate S8388608x9 1 xs h (ix2 r ⟨k, hk9⟩) = x₁ (ix2 r 0) :=
  concatenate_apply_piece 1 xs h (ix2 r ⟨k, hk9⟩) k hk S8388608x1 x₁ hxk rfl k hpre (ix2 r 0)
    (fun b hb => match b with
      | ⟨0, _⟩ => rfl
      | ⟨1, _⟩ => absurd rfl hb)
    rfl

/-- THE REFERENCE'S ARRAY is the inverse of every row of its argument. -/
theorem ref_eq : val_main_v40 (F := Ideal) X = inv X := by
  funext j
  obtain ⟨r, k, rfl⟩ : ∃ (r : Fin 8388608) (k : Fin 9), j = ix2 r k := ⟨j 0, j 1, eq_ix2 (n0 := 8388608) (n1 := 9) j⟩
  rw [inv_ix2]
  unfold val_main_v40
  match k with
  | ⟨0, _⟩ => exact (joined_apply _ _ 0 (by omega) (by show 0 < 9; omega) _ rfl rfl r).trans (joined0 X r 0)
  | ⟨1, _⟩ => exact (joined_apply _ _ 1 (by omega) (by show 1 < 9; omega) _ rfl rfl r).trans (joined1 X r 0)
  | ⟨2, _⟩ => exact (joined_apply _ _ 2 (by omega) (by show 2 < 9; omega) _ rfl rfl r).trans (joined2 X r 0)
  | ⟨3, _⟩ => exact (joined_apply _ _ 3 (by omega) (by show 3 < 9; omega) _ rfl rfl r).trans (joined3 X r 0)
  | ⟨4, _⟩ => exact (joined_apply _ _ 4 (by omega) (by show 4 < 9; omega) _ rfl rfl r).trans (joined4 X r 0)
  | ⟨5, _⟩ => exact (joined_apply _ _ 5 (by omega) (by show 5 < 9; omega) _ rfl rfl r).trans (joined5 X r 0)
  | ⟨6, _⟩ => exact (joined_apply _ _ 6 (by omega) (by show 6 < 9; omega) _ rfl rfl r).trans (joined6 X r 0)
  | ⟨7, _⟩ => exact (joined_apply _ _ 7 (by omega) (by show 7 < 9; omega) _ rfl rfl r).trans (joined7 X r 0)
  | ⟨8, _⟩ => exact (joined_apply _ _ 8 (by omega) (by show 8 < 9; omega) _ rfl rfl r).trans (joined8 X r 0)
  | ⟨n + 9, h⟩ => exact absurd h (by omega)

end Cert.ReferenceIdeal.Hand

end
-- ==== Proof.lean ====
/-
  The inverse of a batch of upper-triangular 3×3 matrices: a tiled kernel against its plain reference.

  The argument is an [8388608, 9] array, each row a 3×3 matrix laid out row-major of which only the upper triangle
  (a, b, c / d, e / f) is read; the result is the array of the inverses, laid out the same way:

      1/a    −b·(1/a)·(1/d)    (b·e − c·d)·((1/a)·(1/d)·(1/f))
       0         1/d                −e·(1/d)·(1/f)
       0          0                     1/f

  (`Cert.TriInv.inv`, Proof/Spec.lean). The kernel works through the rows 16384 at a time on a grid of 512 points;
  at each point its body forms the nine columns of the block's inverses and stores them one column at a time
  (Proof/KernelBlock.lean), and the 512 blocks tile the result (Proof/KernelArray.lean). The reference forms the
  same nine columns over all rows at once and joins them (Proof/RefValue.lean). Both group every product alike; the
  one difference in spelling is the sign, `0 − x` in the kernel and `−x` in the reference, the same extended real
  for every x. So both result arrays are `inv` of the argument, whatever the argument holds: no finiteness is used.
  The three frames are the generated ones (the reference's is its generated run with the result dropped), and the
  idealization rewrote nothing.
-/
import proofs.«142491_j13572096655809_2_alg».proof.Defs
import proofs.«142491_j13572096655809_2_alg».proof.Proof.Gen.Kernel
import proofs.«142491_j13572096655809_2_alg».proof.Proof.Gen.Kernel.Skeleton
import proofs.«142491_j13572096655809_2_alg».proof.Proof.Gen.Kernel.Launch
import proofs.«142491_j13572096655809_2_alg».proof.Proof.Gen.Kernel.Points
import proofs.«142491_j13572096655809_2_alg».proof.Proof.Gen.Kernel.Frame
import proofs.«142491_j13572096655809_2_alg».proof.Proof.Gen.KernelIdeal
import proofs.«142491_j13572096655809_2_alg».proof.Proof.Gen.KernelIdeal.Skeleton
import proofs.«142491_j13572096655809_2_alg».proof.Proof.Gen.KernelIdeal.Launch
import proofs.«142491_j13572096655809_2_alg».proof.Proof.Gen.KernelIdeal.Points
import proofs.«142491_j13572096655809_2_alg».proof.Proof.Gen.KernelIdeal.Frame
import proofs.«142491_j13572096655809_2_alg».proof.Proof.Gen.ReferenceIdeal
import proofs.«142491_j13572096655809_2_alg».proof.Proof.Gen.Pre_finite_inputs
import proofs.«142491_j13572096655809_2_alg».proof.Proof.Gen.KernelIdeal.Value
import proofs.«142491_j13572096655809_2_alg».proof.Proof.Gen.ReferenceIdeal.Run
import proofs.«142491_j13572096655809_2_alg».proof.Proof.Gen.ReferenceIdeal.Read
import proofs.«142491_j13572096655809_2_alg».proof.Proof.KernelArray
import proofs.«142491_j13572096655809_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: nothing was rewritten. -/
theorem preserves : Cert.preserves_Kernel_KernelIdeal := trivial

/-- From arguments that agree, the kernel's result array ends at `inv` of the argument (its 512 blocks, each the
    inverses of its rows) and the reference's at `inv` of the argument (its nine joined columns): equal arrays. -/
theorem algebraic : Cert.algebraic_KernelIdeal_ReferenceIdeal := by
  intro m ρ m' ρ' _ hagree
  refine ⟨fun c => Cert.TriInv.inv (m ((c.tc : Thread Cert.KernelIdeal.nD Cert.KernelIdeal.τ).loc Cert.KernelIdeal.main_arg0)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, Cert.ReferenceIdeal.Hand.ref_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
